-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8192x1024 : Shape := ⟨2, ![8192, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x2048x1024 .f32) (main_arg1 : FVec F S8192x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x2048x1024 : Shape := ⟨3, ![4, 2048, 1024]⟩
abbrev S8192x1024 : Shape := ⟨2, ![8192, 1024]⟩
abbrev S2048x1024 : Shape := ⟨2, ![2048, 1024]⟩
abbrev S2048 : Shape := ⟨1, ![2048]⟩
abbrev S2048x1 : Shape := ⟨2, ![2048, 1]⟩
abbrev S8192x8192 : Shape := ⟨2, ![8192, 8192]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S4x2048x8192 : Shape := ⟨3, ![4, 2048, 8192]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x8192, .f32⟩
  | .hbm, ⟨5, _⟩ => ⟨S4x2048x8192, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S8192x1024, .bf16⟩
  | .local _ .vmem, ⟨7, _⟩ => ⟨S512x2048, .f32⟩
  | .local _ .vmem, ⟨8, _⟩ => ⟨S512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v0 : BitVec 32 := Scalar.muli arg1 c2048_i32
  v0
def k1_off1 (i : grid1.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x1024_S8192x1024 : S4x2048x1024.ShapeCasts S8192x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S512x2048_S512x2048_0_0 : ∀ a, (![0, 0] : Fin 2 → Nat) a + S512x2048.size a ≤ S512x2048.size a
  h_S512x2048 : 0 < S512x2048.numel
  shapeCasts_S8192x8192_S4x2048x8192 : S8192x8192.ShapeCasts S4x2048x8192
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .bf16 = 32 ∨ (Rect.block (s := S8192x1024) S2048x1024.size (cc0_transform_1 i) (hinb0_1 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x1024.size a ≤ S8192x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x8192.size a
  hwx1_2 : ∀ i : grid1.Coords, EltTy.bits .f32 = 32 ∨ (Rect.block (s := S8192x8192) S512x2048.size (cc1_transform_2 i) (hinb1_2 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S8192x1024 : Shape := ⟨2, ![8192, 1024]⟩
abbrev S_ : Shape := ⟨0, ![]⟩
abbrev S4x2048 : Shape := ⟨2, ![4, 2048]⟩
abbrev S4x2048x1 : Shape := ⟨3, ![4, 2048, 1]⟩
abbrev S8192 : Shape := ⟨1, ![8192]⟩
abbrev S8192x1 : Shape := ⟨2, ![8192, 1]⟩
abbrev S4x2048x8192 : Shape := ⟨3, ![4, 2048, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S_, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S4x2048x8192, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S4x2048x1024 : S_.BroadcastsInDim S4x2048x1024 (![] : Fin 0 → Fin S4x2048x1024.rank)
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S4x2048x1024_S8192x1024_S4x2048x8192_2_1_01_0_n_n_wf : DotDims.WF S4x2048x1024 S8192x1024 S4x2048x8192 [2] [1] [0, 1] [0] [] []

variable [Facts₀]

def dot_S4x2048x1024_S8192x1024_S4x2048x8192_2_1_01_0_n_n : DotDims S4x2048x1024 S8192x1024 S4x2048x8192 where
  lhsContracting := [2]
  rhsContracting := [1]
  lhsNonContracting := [0, 1]
  rhsNonContracting := [0]
  lhsBatch := []
  rhsBatch := []
  wf := dot_S4x2048x1024_S8192x1024_S4x2048x8192_2_1_01_0_n_n_wf

class Facts : Prop extends Facts₀ where

variable [Facts]
-- ==== Proof.Spec.lean ====
/-
  The function both programs compute, stated once on the extended reals.

  A row `v` of 1024 entries is scaled to unit length: every entry times the reciprocal square root of the row's squared
  length, the squared length floored at a small positive constant. The result pairs every shifted row of `x` (each entry
  plus a small constant) with every row of `ref`: entry (b, n, m) is the sum over the 1024 features of the product of the
  two scaled rows. Both constants are the same binary words in the two programs, so their values are never needed.

  The kernel works on `x` flattened to 8192 rows and writes an 8192 × 8192 matrix that is reshaped at the end; row
  `b * 2048 + n` of the flat array is row (b, n) of `x`, which is all the reshapes contribute (`reshape_cosFlat`).
-/
import Idealize.ShloMosaic.PureOps.Ideal
import Idealize.ShloMosaic.PureOps.Ideal.Laws
import Idealize.ShloMosaic.Lib.ValueIdx
import Idealize.ShloMosaic.Lib.Pipeline.Value

noncomputable section

namespace Cert.Cosine

open Idealize.ShloMosaic Idealize.ShloMosaic.ValueIdx

/-- The shapes: `x`, a matrix of 8192 rows of 1024 features (`ref`, and `x` flattened), the flat and the final result. -/
abbrev X3 : Shape := ⟨3, ![4, 2048, 1024]⟩
abbrev M2 : Shape := ⟨2, ![8192, 1024]⟩
abbrev O2 : Shape := ⟨2, ![8192, 8192]⟩
abbrev O3 : Shape := ⟨3, ![4, 2048, 8192]⟩

/-- The constant added to every entry of `x` (the f32 nearest to 1e-7), as the word both programs print. -/
abbrev shift : EReal := Ideal.ofBits .f32 0x33D6BF95#32
/-- The floor under a squared length (the f32 nearest to 1e-12), as the word both programs print. -/
abbrev floor : EReal := Ideal.ofBits .f32 0x2B8CBCCC#32

/-- The reciprocal square root of a row's squared length, floored. -/
def invLen (v : Fin 1024 → EReal) : EReal := Ideal.rsqrt (max (∑ k : Fin 1024, v k * v k) floor)

/-- A row scaled to unit length. -/
def unitRow (v : Fin 1024 → EReal) (d : Fin 1024) : EReal := v d * invLen v

/-- The inner product of two rows. -/
def dotRows (u w : Fin 1024 → EReal) : EReal := ∑ k : Fin 1024, u k * w k

/-- Row `p` of a flat matrix, shifted. -/
def shiftedRow (xf : M2.Idx → EReal) (p : Fin 8192) : Fin 1024 → EReal := fun d => xf (ix2 p d) + shift
/-- Row `q` of a matrix. -/
def plainRow (r : M2.Idx → EReal) (q : Fin 8192) : Fin 1024 → EReal := fun d => r (ix2 q d)
/-- Row (b, n) of `x`, shifted. -/
def shiftedRow3 (x : X3.Idx → EReal) (b : Fin 4) (n : Fin 2048) : Fin 1024 → EReal := fun d => x (ix3 b n d) + shift

/-- Every row of a matrix scaled to unit length: what the first kernel leaves for the second. -/
def unitRows (r : M2.Idx → EReal) : M2.Idx → EReal := fun j => unitRow (plainRow r (j 0)) (j 1)

/-- What the second kernel computes from the flat `x` and an already scaled matrix `rn`: entry (p, q) is the inner product
    of `x`'s shifted row `p`, scaled, with row `q` of `rn`. -/
def pairFlat (xf rn : M2.Idx → EReal) : O2.Idx → EReal := fun j =>
  dotRows (unitRow (shiftedRow xf (j 0))) (plainRow rn (j 1))

/-- The two kernels composed, on the flat shapes. -/
def cosFlat (xf r : M2.Idx → EReal) : O2.Idx → EReal := pairFlat xf (unitRows r)

/-- The result on the shapes of the claim. -/
def cos (x : X3.Idx → EReal) (r : M2.Idx → EReal) : O3.Idx → EReal := fun i =>
  dotRows (unitRow (shiftedRow3 x (i 0) (i 1))) (unitRow (plainRow r (i 2)))

/-- Row `q` of the scaled matrix is the scaled row `q`. -/
theorem plainRow_unitRows (r : M2.Idx → EReal) (q : Fin 8192) : plainRow (unitRows r) q = unitRow (plainRow r q) := rfl

/-- Row `b * 2048 + n` of the flattened `x` is row (b, n) of `x`. -/
theorem shiftedRow_flat (x : X3.Idx → EReal) (h1 : X3.ShapeCasts M2) (b : Fin 4) (n : Fin 2048)
    (hp : b.val * 2048 + n.val < 8192) :
    shiftedRow (shapeCast M2 x h1) ⟨b.val * 2048 + n.val, hp⟩ = shiftedRow3 x b n := by
  funext d
  unfold shiftedRow shiftedRow3
  refine congrArg (· + shift) ?_
  refine shapeCast_apply x h1 (ix2 ⟨b.val * 2048 + n.val, hp⟩ d) (ix3 b n d) ?_
  rw [Shape.rowMajor_val_two, Shape.rowMajor_val_three]
  rfl

/-- Flattening `x`, pairing the rows and reshaping the matrix of results is the result on the shapes of the claim. -/
theorem reshape_cosFlat (x : X3.Idx → EReal) (r : M2.Idx → EReal) (h1 : X3.ShapeCasts M2) (h2 : O2.ShapeCasts O3) :
    shapeCast O3 (cosFlat (shapeCast M2 x h1) r) h2 = cos x r := by
  funext i
  obtain ⟨b, n, c, rfl⟩ : ∃ (b : Fin 4) (n : Fin 2048) (c : Fin 8192), i = ix3 b n c := ⟨i 0, i 1, i 2, eq_ix3 i⟩
  have hp : b.val * 2048 + n.val < 8192 := by omega
  refine (shapeCast_apply _ h2 (ix3 b n c) (ix2 ⟨b.val * 2048 + n.val, hp⟩ c) ?_).trans ?_
  · rw [Shape.rowMajor_val_two, Shape.rowMajor_val_three]
    rfl
  · show dotRows (unitRow (shiftedRow (shapeCast M2 x h1) ⟨b.val * 2048 + n.val, hp⟩)) (plainRow (unitRows r) c)
      = dotRows (unitRow (shiftedRow3 x b n)) (unitRow (plainRow r c))
    rw [shiftedRow_flat x h1 b n hp, plainRow_unitRows]

end Cert.Cosine

end
-- ==== Proof.RefValue.lean ====
/-
  The reference computes `Cosine.cos`.

  Read one operation at a time, the reference's product-sum at (b, n, m) runs over the features `k` of its scaled `x` at
  (b, n, k) times its scaled `ref` at (m, k). Each scaled entry is the entry (shifted, for `x`) times the reciprocal root of
  the floored row sum of squares; the host's row sum starts from the zero word, which is the extended real 0.
-/
import proofs.«176777_j66563403153867_2_alg».proof.Proof.Gen.ReferenceIdeal.Read
import proofs.«176777_j66563403153867_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Cosine

/-- The reference's scaled `x` at (b, n, k) is the scaled shifted row (b, n) at `k`. -/
theorem scaled_x (x0 : X3.Idx → EReal) (b : Fin 4) (n : Fin 2048) (k : Fin 1024) :
    val_main_v9 (F := Ideal) x0 (ix3 b n k) = unitRow (shiftedRow3 x0 b n) k := by
  have hrow : ∀ k' : Fin 1024, idx_main_v3 (idx_main_v4 (idx_main_v8 (ix3 b n k))) k' = ix3 b n k' := fun k' =>
    funext fun a => Fin.ext (by match a with | ⟨0, _⟩ => rfl | ⟨1, _⟩ => rfl | ⟨2, _⟩ => rfl)
  simp only [val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, hrow,
    Ideal.mulf_def, Ideal.addf_def, Ideal.maximumf_def, Ideal.hostUnary_rsqrt_def, Ideal.ofBits_def,
    Ideal.ofBits_zero_f32, zero_add]
  rfl

/-- The reference's scaled `ref` at (m, k) is the scaled row `m` at `k`. -/
theorem scaled_ref (x1 : M2.Idx → EReal) (q : Fin 8192) (k : Fin 1024) :
    val_main_v17 (F := Ideal) x1 (ix2 q k) = unitRow (plainRow x1 q) k := by
  have hrow : ∀ k' : Fin 1024, idx_main_v11 (idx_main_v12 (idx_main_v16 (ix2 q k))) k' = ix2 q k' := fun k' =>
    funext fun a => Fin.ext (by match a with | ⟨0, _⟩ => rfl | ⟨1, _⟩ => rfl)
  simp only [val_main_v17_apply, val_main_v16_apply, val_main_v15_apply, val_main_v14_apply, val_main_v13_apply,
    val_main_v12_apply, val_main_v11_apply, val_main_v10_apply,
    val_main_cst_2_apply, val_main_cst_3_apply, hrow,
    Ideal.mulf_def, Ideal.addf_def, Ideal.maximumf_def, Ideal.hostUnary_rsqrt_def, Ideal.ofBits_def,
    Ideal.ofBits_zero_f32, zero_add]
  rfl

/-- The reference's result, as a function of its two arguments, is `Cosine.cos`: at (b, n, m) the sum over the features of
    the two scaled rows' products. -/
theorem result_eq (x0 : X3.Idx → EReal) (x1 : M2.Idx → EReal) :
    val_main_v18 (F := Ideal) x0 x1 = cos x0 x1 := by
  funext i
  obtain ⟨b, n, c, rfl⟩ : ∃ (b : Fin 4) (n : Fin 2048) (c : Fin 8192), i = ix3 b n c := ⟨i 0, i 1, i 2, eq_ix3 i⟩
  rw [val_main_v18_apply]
  show _ = dotRows (unitRow (shiftedRow3 x0 b n)) (unitRow (plainRow x1 c))
  unfold dotRows
  refine Finset.sum_congr rfl fun k _ => ?_
  have hl : lidx_main_v18 (ix3 b n c) k = ix3 b n k :=
    funext fun a => Fin.ext (by match a with | ⟨0, _⟩ => rfl | ⟨1, _⟩ => rfl | ⟨2, _⟩ => rfl)
  have hr : ridx_main_v18 (ix3 b n c) k = ix2 c k :=
    funext fun a => Fin.ext (by match a with | ⟨0, _⟩ => rfl | ⟨1, _⟩ => rfl)
  rw [hl, hr, scaled_x, scaled_ref]

end Cert.ReferenceIdeal.RefValue

end
-- ==== Proof.LibColumns.lean ====
/-
  A matrix and its column of row sums, read at explicit coordinates (general lemmas, no program imported).

  Summing each row of an `[a, b]` matrix and keeping the axis is three operations: the lane sum `[a, b] → [a]`, the cast of the
  sums to a column `[a] → [a, 1]`, and the broadcast of the column over the rows' entries `[a, 1] → [a, b]`. Each is read here
  at an index written with explicit coordinates, for any extents: entry `p` of the sums is the sum of row `p`; entry (p, u) of
  the column is entry `p` of the sums; entry (p, c) of the broadcast is the column's entry of row `p`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Columns

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` matrix of extended reals, at row `p`, is the sum of the row's entries. -/
theorem rowSum_apply {a b : ℕ} (src : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 hr hφ hacc (ix1 p) = ∑ k : Fin b, src (ix2 p k) := by
  refine (Ideal.multiReduction_add_single src 0x00000000#32 hr hφ hacc (ix1 p)).trans ?_
  refine Finset.sum_congr rfl fun k _ => congrArg src ?_
  funext c
  refine Fin.ext ?_
  rw [hr.lift_val]
  match c with
  | ⟨0, _⟩ => rfl
  | ⟨1, _⟩ => rfl

end Cert.Columns

end
-- ==== Proof.Rows.lean ====
/-
  What both kernel bodies do to a block of rows, read at an entry.

  Each body squares its block, sums every row, floors the sums, takes reciprocal roots and multiplies every entry of a row by
  its row's factor. At entry (p, q) of an `[a, 1024]` block that is the row `p` scaled to unit length, at `q`: the column of
  sums is read through the cast `[a] → [a, 1]` and the broadcast `[a, 1] → [a, 1024]`, the lane sum as a sum over the row.
-/
import proofs.«176777_j66563403153867_2_alg».proof.Proof.Spec
import proofs.«176777_j66563403153867_2_alg».proof.Proof.LibColumns

noncomputable section

namespace Cert.Cosine

open Idealize.ShloMosaic Idealize.ShloMosaic.ValueIdx Cert.Columns

/-- A block's rows scaled to unit length, as a kernel body spells it, at entry (p, q). -/
theorem scaledBlock_apply {a : ℕ} (v : FVec Ideal ⟨2, ![a, 1024]⟩ .f32)
    (hr : (⟨2, ![a, 1024]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 1024]⟩)
    (p : Fin a) (q : Fin 1024) :
    mulf v (broadcastTo ⟨2, ![a, 1024]⟩ (rsqrt (maximumf
        (shapeCast ⟨2, ![a, 1]⟩ (multiReduction .add [1] ⟨1, ![a]⟩ (mulf v v) 0x00000000#32 hr hφ hacc) hc)
        (broadcast ⟨2, ![a, 1]⟩ (Scalar.ofBits .f32 0x2B8CBCCC#32)))) hb) (ix2 p q)
      = unitRow (fun d => v (ix2 p d)) q := by
  show v (ix2 p q) * broadcastTo ⟨2, ![a, 1024]⟩ _ hb (ix2 p q) = v (ix2 p q) * invLen (fun d => v (ix2 p d))
  refine congrArg (v (ix2 p q) * ·) ?_
  rw [broadcastTo_a1_ab_apply _ hb p q]
  show Ideal.rsqrt (max (shapeCast ⟨2, ![a, 1]⟩ _ hc (ix2 p (0 : Fin 1))) floor) = _
  rw [shapeCast_a_a1_apply _ hc p 0, rowSum_apply (mulf v v) hr hφ hacc p]
  rfl

end Cert.Cosine

end
-- ==== Proof.Region0.lean ====
/-
  The first kernel: every row of `ref` scaled to unit length.

  The grid has four points; point `t` reads rows `2048 t … 2048 t + 2047` of its input array and writes the same rows of its
  output array. An entry the body stores depends only on its own row of the block, so the four blocks written back are the
  four row bands of one whole-array function, `Cosine.unitRows` of the input array, and together they cover the output array.
-/
import proofs.«176777_j66563403153867_2_alg».proof.Proof.Gen.KernelIdeal.Frame
import proofs.«176777_j66563403153867_2_alg».proof.Proof.Rows
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.Cosine

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of its block: row `p` of the loaded block scaled to unit length, at `q`
    (the change of float format is the identity on the extended reals). -/
theorem stored_apply (v0 : Vec Ideal S2048x1024 .f32) (p : Fin 2048) (q : Fin 1024) :
    k0_pay1 (F := Ideal) v0 (ix2 p q) = unitRow (fun d => v0 (ix2 p d)) q := by
  unfold k0_pay1
  exact scaledBlock_apply (a := 2048) v0 _ _ _ _ _ p q

/-- If a block holds the band of 2048 rows of `A` that starts at row `2048 r0`, the value stored at entry `y` of the block is
    `A`'s scaled rows at the array index `i` of that entry: the same row, the same feature. -/
theorem band_eq (A : M2.Idx → EReal) (x0 : Vec Ideal S2048x1024 .f32) (r0 : Nat) (hr0 : r0 ≤ 3)
    (hx : ∀ (p : Fin 2048) (d : Fin 1024), x0 (ix2 p d) = A (ix2 ⟨r0 * 2048 + p.val, by have := p.isLt; omega⟩ d))
    (y : S2048x1024.Idx) (i : S8192x1024.Idx)
    (hi0 : (i 0).val = r0 * 2048 + (y 0).val) (hi1 : (i 1).val = (y 1).val) :
    k0_pay1 (F := Ideal) x0 y = unitRows A i := by
  obtain ⟨p, q, rfl⟩ : ∃ (p : Fin 2048) (q : Fin 1024), y = ix2 p q := ⟨y 0, y 1, eq_ix2 y⟩
  have hb : r0 * 2048 + p.val < 8192 := by have := p.isLt; omega
  obtain ⟨p', q', rfl⟩ : ∃ (p' : Fin 8192) (q' : Fin 1024), i = ix2 p' q' := ⟨i 0, i 1, eq_ix2 i⟩
  have hp : p' = ⟨r0 * 2048 + p.val, hb⟩ := Fin.ext hi0
  have hq : q' = q := Fin.ext hi1
  subst hp hq
  rw [stored_apply]
  show unitRow (fun d => x0 (ix2 p d)) q' = unitRow (plainRow A _) q'
  refine congrArg (fun v => unitRow v q') (funext fun d => ?_)
  exact hx p d

/-- The two windows move together down the rows, one block of 2048 rows per point, and never sideways. -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 3 :=
  (by decide +kernel : ∀ t : Fin grid0.N, _)

/-- What point `t` writes back is block `t` of the scaled rows of the input array. -/
theorem flushed_eq (c : Dev nD) (t : Fin cfg0.N) :
    (dat0 V c).flushed 1 t = ((cfg0.win 1).blk t).view.read (Elt Ideal) (unitRows (V c main_arg1)) := by
  show (cfg0.win 1).cut (grid0.coords t) ((dat0 V c).after 1 t) = _
  rw [after0_1]
  unfold out0_1
  rw [View.canon_unit_zero origin]
  simp only [View.ld_unit_zero (S := S2048x1024) origin]
  obtain ⟨e0, e1, e2, e3⟩ := index_facts t
  funext j
  refine band_eq (V c main_arg1) (iblk0 V c 0 t) (win0_1.index t (0 : Fin 2)) e3 (fun p d => ?_) j
    (((cfg0.win 1).blk t).view.emb j) ?_ ?_
  · unfold iblk0
    rw [View.read_apply]
    show V c main_arg1 _ = V c main_arg1 _
    refine congrArg (V c main_arg1) (funext fun a => Fin.ext ?_)
    match a with
    | ⟨0, _⟩ => show win0_0.index t (0 : Fin 2) * 2048 + 1 * p.val = win0_1.index t (0 : Fin 2) * 2048 + p.val; omega
    | ⟨1, _⟩ => show win0_0.index t (1 : Fin 2) * 1024 + 1 * d.val = d.val; omega
  · show win0_1.index t (0 : Fin 2) * 2048 + 1 * (j 0).val = win0_1.index t (0 : Fin 2) * 2048 + (j 0).val; omega
  · show win0_1.index t (1 : Fin 2) * 1024 + 1 * (j 1).val = (j 1).val; omega

/-- An index of the output array lies in point `t`'s block iff each coordinate lies in the block's range on its axis. -/
theorem mem_block (t : Fin cfg0.N) (i : S8192x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_v1).slice (win0_1.rect t)).set ↔ _
  rw [View.set_slice_whole, Rect.mem_set_unit]
  exact Iff.rfl

/-- Each of the four row bands is some point's block. -/
theorem index_onto : ∀ q0 : Fin 4, ∃ t : Fin cfg0.N, win0_1.index t = ![q0.val, 0] :=
  (by decide +kernel : ∀ q0 : Fin 4, ∃ t : Fin grid0.N, win0_1.index t = ![q0.val, 0])

/-- Row `r` of the output array is written by the point whose band holds it, `r / 2048`: the blocks cover the array. -/
theorem covered (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  obtain ⟨t, ht⟩ := index_onto ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_block]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 1024 ≤ (i 1).val ∧ (i 1).val < win0_1.index t (1 : Fin 2) * 1024 + 1024
    omega

/-- After the first kernel its output array holds the scaled rows of its input array, whatever the region found there. -/
theorem final (c : Dev nD) : (dat0 V c).arrAt 1 cfg0.N = unitRows (V c main_arg1) :=
  (dat0 V c).arrAt_eq_of_cover 1 (unitRows (V c main_arg1)) (fun t _ => flushed_eq V c t) covered

end Cert.KernelIdeal.Region0

end
-- ==== Proof.Region1.lean ====
/-
  The second kernel: every shifted row of the flat `x`, scaled to unit length, against every row of the already scaled matrix.

  The grid is 16 × 4. Point (a, b) reads rows `512 a … 512 a + 511` of the flat `x`, keeps the whole scaled matrix resident and
  loads its rows `2048 b … 2048 b + 2047`, and writes the 512 × 2048 tile at (a, b) of the result: entry (p, c) of the tile is the
  inner product, over the 1024 features, of the block's scaled row `p` with the loaded row `c`. An entry depends only on its own
  row of each operand, so the 64 tiles are the tiles of one whole-array function, `Cosine.pairFlat`, and they cover the result.
-/
import proofs.«176777_j66563403153867_2_alg».proof.Proof.Gen.KernelIdeal.Frame
import proofs.«176777_j66563403153867_2_alg».proof.Proof.Rows
import Idealize.ShloMosaic.Lib.Pipeline.Value
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)
open Cert.Cosine

variable (V : (c : Dev nD) → (b : Ref sig .tc) → Buf (Elt Ideal) ((c : Thread nD τ).loc b))

theorem origin : (![0, 0] : Fin 2 → Nat) = fun _ => 0 := funext fun a => by fin_cases a <;> rfl

/-! ## The product's operand indices: the result's row picks the left operand's row, its column the right operand's row,
    and the one contracted coordinate runs along both operands' features -/

theorem lhs_row (j : S512x2048.Idx) (q : dot_S512x1024_S2048x1024_S512x2048_1_1_0_0_n_n.contr.Idx) :
    (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem lhs_feature (j : S512x2048.Idx) (q : dot_S512x1024_S2048x1024_S512x2048_1_1_0_0_n_n.contr.Idx) :
    (dot_S512x1024_S2048x1024_S512x2048_1_1_0_0_n_n.lhsIdx j q 1).val = (q ⟨0, by decide⟩).val :=
  dot_S512x1024_S2048x1024_S512x2048_1_1_0_0_n_n.lhsIdx_val_of_single rfl j q
theorem rhs_row (j : S512x2048.Idx) (q : dot_S512x1024_S2048x1024_S512x2048_1_1_0_0_n_n.contr.Idx) :
    (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem rhs_feature (j : S512x2048.Idx) (q : dot_S512x1024_S2048x1024_S512x2048_1_1_0_0_n_n.contr.Idx) :
    (dot_S512x1024_S2048x1024_S512x2048_1_1_0_0_n_n.rhsIdx j q 1).val = (q ⟨0, by decide⟩).val :=
  dot_S512x1024_S2048x1024_S512x2048_1_1_0_0_n_n.rhsIdx_val_of_single rfl j q

/-- The body's stored value at entry (p, c) of its tile: the inner product of row `p` of the loaded `x` block, shifted and
    scaled to unit length, with row `c` of the loaded rows of the scaled matrix (a product into the zero matrix is the plain sum
    of products on the extended reals; the changes of float format are the identity). -/
theorem stored_apply (v3 : FVec Ideal S2048x1024 .bf16) (v5 : FVec Ideal S512x1024 .f32) (p : Fin 512) (c : Fin 2048) :
    k1_pay1 (F := Ideal) v3 v5 (ix2 p c)
      = dotRows (unitRow (fun d => v5 (ix2 p d) + shift)) (fun k => v3 (ix2 c k)) := by
  unfold k1_pay1
  simp only [shapeCast_self]
  refine (Ideal.matmul_constant_zero_apply (φ₁ := .bf16) (φ₂ := .bf16) dot_S512x1024_S2048x1024_S512x2048_1_1_0_0_n_n none _ v3 (ix2 p c)).trans ?_
  rw [← Equiv.sum_comp (contrEquiv1 dot_S512x1024_S2048x1024_S512x2048_1_1_0_0_n_n 1024 rfl rfl).symm]
  unfold dotRows
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p c)
      ((contrEquiv1 dot_S512x1024_S2048x1024_S512x2048_1_1_0_0_n_n 1024 rfl rfl).symm k) = ix2 p k :=
    funext fun a => Fin.ext (by
      match a with
      | ⟨0, _⟩ => exact lhs_row _ _
      | ⟨1, _⟩ => exact (lhs_feature _ _).trans hk)
  have er : dot_S512x1024_S2048x1024_S512x2048_1_1_0_0_n_n.rhsIdx (ix2 p c)
      ((contrEquiv1 dot_S512x1024_S2048x1024_S512x2048_1_1_0_0_n_n 1024 rfl rfl).symm k) = ix2 c k :=
    funext fun a => Fin.ext (by
      match a with
      | ⟨0, _⟩ => exact rhs_row _ _
      | ⟨1, _⟩ => exact (rhs_feature _ _).trans hk)
  rw [el, er]
  refine congrArg (· * v3 (ix2 c k)) ?_
  exact scaledBlock_apply (a := 512) (addf v5 (broadcast S512x1024 (Scalar.ofBits .f32 0x33D6BF95#32))) _ _ _ _ _ p k

/-- What a run of the body leaves in the output's staging buffer, whatever the staging memrefs: the stored value of the rows
    it loads from the resident matrix (those its second grid coordinate selects) and of its `x` block. -/
theorem found_eq (c : Dev nD) (i : grid1.Coords) (arg2 : Memref sig .tc .vmem S512x1024 .f32) (harg2 : arg2.IsWhole)
    (arg3 : Memref sig .tc .vmem S8192x1024 .bf16) (harg3 : arg3.IsWhole) (arg4 : Memref sig .tc .vmem S512x2048 .f32) (harg4 : arg4.IsWhole)
    (x0 : Vec Ideal S512x1024 .f32) (x1 : Vec Ideal S8192x1024 .bf16) :
    out1_A_2 (F := Ideal) c i arg2 harg2 arg3 harg3 arg4 harg4 x0 x1
      = k1_pay1 (View.ld x1 (Rect.unit (s := S8192x1024) (k1_off1 i) S2048x1024.size (k1_off1_inb i))) x0 := by
  unfold out1_A_2
  rw [View.read_writes_eq_canon _ _ _ (cover1_A_2 c i arg2 harg2 arg3 harg3 arg4 harg4 x0 x1)]
  unfold kernelRun1_A
  dsimp only
  rw [View.canon_unit_zero origin]
  simp only [View.readAt_eq_ld, harg2.read_unread, harg3.read_unread, View.ld_unit_zero (S := S512x1024) origin]

/-- If the `x` block holds the band of 512 rows of `X` starting at row `512 r0` and the loaded rows are the band of 2048 rows of
    `R` starting at row `2048 c0`, the value stored at entry `y` of the tile is `pairFlat X R` at the array index `i` of that
    entry: row `512 r0 + y₀` of `X` against row `2048 c0 + y₁` of `R`. -/
theorem tile_eq (X R : M2.Idx → EReal) (x0 : FVec Ideal S512x1024 .f32) (x1 : FVec Ideal S2048x1024 .bf16)
    (r0 c0 : Nat) (hr0 : r0 ≤ 15) (hc0 : c0 ≤ 3)
    (hx : ∀ (p : Fin 512) (d : Fin 1024), x0 (ix2 p d) = X (ix2 ⟨r0 * 512 + p.val, by have := p.isLt; omega⟩ d))
    (hr : ∀ (q : Fin 2048) (d : Fin 1024), x1 (ix2 q d) = R (ix2 ⟨c0 * 2048 + q.val, by have := q.isLt; omega⟩ d))
    (y : S512x2048.Idx) (i : S8192x8192.Idx)
    (hi0 : (i 0).val = r0 * 512 + (y 0).val) (hi1 : (i 1).val = c0 * 2048 + (y 1).val) :
    k1_pay1 (F := Ideal) x1 x0 y = pairFlat X R i := by
  obtain ⟨p, q, rfl⟩ : ∃ (p : Fin 512) (q : Fin 2048), y = ix2 p q := ⟨y 0, y 1, eq_ix2 y⟩
  have hbp : r0 * 512 + p.val < 8192 := by have := p.isLt; omega
  have hbq : c0 * 2048 + q.val < 8192 := by have := q.isLt; omega
  obtain ⟨p', q', rfl⟩ : ∃ (p' : Fin 8192) (q' : Fin 8192), i = ix2 p' q' := ⟨i 0, i 1, eq_ix2 i⟩
  have hp : p' = ⟨r0 * 512 + p.val, hbp⟩ := Fin.ext hi0
  have hq : q' = ⟨c0 * 2048 + q.val, hbq⟩ := Fin.ext hi1
  subst hp hq
  rw [stored_apply]
  show dotRows (unitRow (fun d => x0 (ix2 p d) + shift)) (fun k => x1 (ix2 q k))
    = dotRows (unitRow (shiftedRow X ⟨r0 * 512 + p.val, hbp⟩)) (plainRow R ⟨c0 * 2048 + q.val, hbq⟩)
  have e1 : (fun d => x0 (ix2 p d) + shift) = shiftedRow X ⟨r0 * 512 + p.val, hbp⟩ :=
    funext fun d => by rw [hx p d]; rfl
  have e2 : (fun k => x1 (ix2 q k)) = plainRow R ⟨c0 * 2048 + q.val, hbq⟩ := funext fun k => hr q k
  rw [e1, e2]

/-- Over the 64 points: the `x` window and the result window move together down the rows and the `x` window never sideways;
    the resident matrix never moves; the rows the body loads from it start at 2048 times the result window's column index. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ k1_off1 (grid1.coords t) (0 : Fin 2) = win1_2.index t (1 : Fin 2) * 2048 ∧ k1_off1 (grid1.coords t) (1 : Fin 2) = 0
    ∧ win1_2.index t (0 : Fin 2) ≤ 15 ∧ win1_2.index t (1 : Fin 2) ≤ 3 :=
  (by decide +kernel : ∀ t : Fin grid1.N, _)

/-- What point `t` writes back is tile `t` of `pairFlat` of the two arrays the region reads. -/
theorem flushed_eq (c : Dev nD) (t : Fin cfg1.N) :
    (dat1 V c).flushed 2 t = ((cfg1.win 2).blk t).view.read (Elt Ideal) (pairFlat (V c main_v0) (V c main_v1)) := by
  show (cfg1.win 2).cut (grid1.coords t) ((dat1 V c).after 2 t) = _
  rw [after1_2]
  unfold outsAt1
  rw [found_eq]
  obtain ⟨e0, e1, e2, e3, e4, e5, e6, e7⟩ := index_facts t
  funext j
  refine tile_eq (V c main_v0) (V c main_v1) (iblk1 V c 0 t)
    (View.ld (iblk1 V c 1 t) (Rect.unit (s := S8192x1024) (k1_off1 (grid1.coords t)) S2048x1024.size (k1_off1_inb (grid1.coords t))))
    (win1_2.index t (0 : Fin 2)) (win1_2.index t (1 : Fin 2)) e6 e7 (fun p d => ?_) (fun q d => ?_) j
    (((cfg1.win 2).blk t).view.emb j) ?_ ?_
  · unfold iblk1
    rw [View.read_apply]
    show V c main_v0 _ = V c main_v0 _
    refine congrArg (V c main_v0) (funext fun a => Fin.ext ?_)
    match a with
    | ⟨0, _⟩ => show win1_0.index t (0 : Fin 2) * 512 + 1 * p.val = win1_2.index t (0 : Fin 2) * 512 + p.val; omega
    | ⟨1, _⟩ => show win1_0.index t (1 : Fin 2) * 1024 + 1 * d.val = d.val; omega
  · show iblk1 V c 1 t _ = _
    unfold iblk1
    rw [View.read_apply]
    show V c main_v1 _ = V c main_v1 _
    refine congrArg (V c main_v1) (funext fun a => Fin.ext ?_)
    match a with
    | ⟨0, _⟩ =>
      show win1_1.index t (0 : Fin 2) * 8192 + 1 * (k1_off1 (grid1.coords t) (0 : Fin 2) + 1 * q.val)
        = win1_2.index t (1 : Fin 2) * 2048 + q.val
      omega
    | ⟨1, _⟩ =>
      show win1_1.index t (1 : Fin 2) * 1024 + 1 * (k1_off1 (grid1.coords t) (1 : Fin 2) + 1 * d.val) = d.val
      omega
  · show win1_2.index t (0 : Fin 2) * 512 + 1 * (j 0).val = win1_2.index t (0 : Fin 2) * 512 + (j 0).val; omega
  · show win1_2.index t (1 : Fin 2) * 2048 + 1 * (j 1).val = win1_2.index t (1 : Fin 2) * 2048 + (j 1).val; omega

/-- An index of the result array lies in point `t`'s tile iff each coordinate lies in the tile's range on its axis. -/
theorem mem_block (t : Fin cfg1.N) (i : S8192x8192.Idx) :
    i ∈ ((cfg1.win 2).blk t).view.set ↔ ∀ a : Fin 2, win1_2.index t a * S512x2048.size a ≤ (i a).val
      ∧ (i a).val < win1_2.index t a * S512x2048.size a + S512x2048.size a := by
  show i ∈ ((View.whole main_v2).slice (win1_2.rect t)).set ↔ _
  rw [View.set_slice_whole, Rect.mem_set_unit]
  exact Iff.rfl

/-- Each of the 16 × 4 tiles is some point's. -/
theorem index_onto : ∀ (q0 : Fin 16) (q1 : Fin 4), ∃ t : Fin cfg1.N, win1_2.index t = ![q0.val, q1.val] :=
  (by decide +kernel : ∀ (q0 : Fin 16) (q1 : Fin 4), ∃ t : Fin grid1.N, win1_2.index t = ![q0.val, q1.val])

/-- Entry (r, m) of the result is written by the point of tile (r / 512, m / 2048): the tiles cover the array. -/
theorem covered (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := index_onto ⟨(i 0).val / 512, by omega⟩ ⟨(i 1).val / 2048, by omega⟩
  have q0 : win1_2.index t (0 : Fin 2) = (i 0).val / 512 := congrFun ht 0
  have q1 : win1_2.index t (1 : Fin 2) = (i 1).val / 2048 := congrFun ht 1
  refine ⟨t, flush1_2 t, ?_⟩
  rw [mem_block]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 2048 ≤ (i 1).val ∧ (i 1).val < win1_2.index t (1 : Fin 2) * 2048 + 2048
    omega

/-- After the second kernel its result array holds `pairFlat` of the two arrays it read, whatever the region found there. -/
theorem final (c : Dev nD) : (dat1 V c).arrAt 2 cfg1.N = pairFlat (V c main_v0) (V c main_v1) :=
  (dat1 V c).arrAt_eq_of_cover 2 (pairFlat (V c main_v0) (V c main_v1)) (fun t _ => flushed_eq V c t) covered

end Cert.KernelIdeal.Region1

end
-- ==== Proof.KernelRun.lean ====
/-
  The whole idealized kernel program, run and read.

  The program is four stretches: a reshape of `x` to 8192 rows, the kernel that scales the rows of `ref`, the kernel that pairs
  the rows, and a reshape of the 8192 × 8192 result. The memory at each boundary is a fold from the launch memory; the run ends
  with every buffer at the last boundary's contents. Read backwards from the result buffer: the last reshape of the second
  kernel's result array, which is `Cosine.pairFlat` of the flat `x` (the first reshape, which no kernel overwrites) and of the
  first kernel's result array, which is `Cosine.unitRows` of `ref` as launched. Together: `Cosine.cos` of the two arguments.
-/
import proofs.«176777_j66563403153867_2_alg».proof.Proof.Gen.KernelIdeal.Frame
import proofs.«176777_j66563403153867_2_alg».proof.Proof.Region0
import proofs.«176777_j66563403153867_2_alg».proof.Proof.Region1
import Idealize.ShloMosaic.Lib.StableHlo.Run
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Cosine

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the two arguments as launched: the run over the program's four segments ends with every unscoped buffer at
    the last boundary's contents, and the result buffer is one of them. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c)⟩)

end Run

section Read

variable (m : (ℓ : Loc nD τ sig) → Buf (Elt Ideal) ℓ) (ρ : Dev nD → PrngReg)

/-- The last boundary's result buffer is the reshape of the second kernel's result array as the third boundary has it. -/
theorem last_reshape (c : Dev nD) :
    (W4 m ρ c (Proc.devRef .tc main_v3) : S4x2048x8192.Idx → EReal)
      = shapeCast S4x2048x8192 (W3 m ρ c (Proc.devRef .tc main_v2) : S8192x8192.Idx → EReal) shapeCasts_S8192x8192_S4x2048x8192 := by
  show StableHlo.after hostOps2 (W3 m ρ c) (Proc.devRef .tc main_v3) = _
  after_results
  rfl

/-- The second kernel's `x` array: the first reshape of `x` as launched, which the first kernel does not touch. -/
theorem flat_x (c : Dev nD) :
    (V2 m ρ c main_v0 : S8192x1024.Idx → EReal)
      = shapeCast S8192x1024 (m ((c : Thread nD τ).loc main_arg0) : S4x2048x1024.Idx → EReal) shapeCasts_S4x2048x1024_S8192x1024 := by
  show W2 m ρ c (Proc.devRef .tc main_v0) = _
  rw [W2_of_ne m ρ c main_v0 (by decide)]
  show StableHlo.after hostOps0 (W0 m ρ c) (Proc.devRef .tc main_v0) = _
  after_results
  rfl

/-- The first kernel finds `ref` as launched: the reshape before it writes another buffer. -/
theorem entry_ref (c : Dev nD) :
    (V1 m ρ c main_arg1 : S8192x1024.Idx → EReal) = m ((c : Thread nD τ).loc main_arg1) := by
  show StableHlo.after hostOps0 (W0 m ρ c) (Proc.devRef .tc main_arg1) = _
  after_results

/-- The second kernel's resident matrix: the first kernel's result array, the scaled rows of `ref` as launched. -/
theorem scaled_ref (c : Dev nD) :
    (V2 m ρ c main_v1 : S8192x1024.Idx → EReal) = unitRows (m ((c : Thread nD τ).loc main_arg1)) := by
  refine ((W2_arr m ρ c 1).trans (Region0.final (V1 m ρ) c)).trans ?_
  rw [entry_ref]

/-- The result buffer at the last boundary is `Cosine.cos` of the two arguments as launched. -/
theorem result_eq (c : Dev nD) :
    (W4 m ρ c (Proc.devRef .tc main_v3) : S4x2048x8192.Idx → EReal)
      = cos (m ((c : Thread nD τ).loc main_arg0)) (m ((c : Thread nD τ).loc main_arg1)) := by
  rw [last_reshape]
  have h3 : (W3 m ρ c (Proc.devRef .tc main_v2) : S8192x8192.Idx → EReal)
      = pairFlat (V2 m ρ c main_v0) (V2 m ρ c main_v1) :=
    (W3_arr m ρ c 2).trans (Region1.final (V2 m ρ) c)
  rw [h3, flat_x, scaled_ref]
  exact reshape_cosFlat _ _ _ _

/-- The idealized kernel program, run: the result buffer ends at `Cosine.cos` of the arguments, the arguments unchanged. -/
theorem run : θ_run defs (onTc (τ := τ) (main (F := Ideal))) ⟨m, fun _ => 0, ρ⟩ (fun r => ∀ c : Dev nD,
      r.2.mem ((c.tc : Thread nD τ).loc main_v3)
        = cos (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_result m ρ)

end Read

end Cert.KernelIdeal.Whole

end
-- ==== Proof.lean ====
/- The proof of `Cert.Claim`: a matrix of cosines, computed two ways.

   Both programs scale every row of `ref`, and every row of `x` shifted by a small constant, to unit length — each entry times
   the reciprocal square root of its row's squared length floored at a small constant — and pair every scaled row of `x` with
   every scaled row of `ref` by the inner product over the 1024 features (`Cosine.cos`, Proof/Spec.lean). The two constants
   are the same binary words on both sides, and every product has its factors in the same order, so on the extended reals the
   two results are the same expression index by index; only the bookkeeping differs, none of which needs the inputs finite:
   a sum taken by a lane reduction, a host reduction, a matrix product into zero or a `dot_general` is one finite sum; a
   change of float format is the identity; the kernels' tiling is a partition of the rows; the reshapes renumber rows.

   • the reference, read one operation at a time, is `Cosine.cos` (Proof/RefValue.lean, over the generated reading modules);
   • the first kernel leaves the scaled rows of `ref` (Proof/Region0.lean), the second the pairing of the flat `x` with them
     (Proof/Region1.lean), both over the generated frame's per-point facts and Proof/Rows.lean, Proof/LibColumns.lean;
   • the program's run ends with the result buffer at the last boundary's contents, which read back through the two kernels
     and the two reshapes are `Cosine.cos` of the arguments (Proof/KernelRun.lean).
   The three frames are the generated ones (the reference's is its generated run with the result dropped); the idealization
   rewrote nothing, so `preserves` is `True`. -/
import proofs.«176777_j66563403153867_2_alg».proof.Defs
import proofs.«176777_j66563403153867_2_alg».proof.Proof.Gen.Kernel
import proofs.«176777_j66563403153867_2_alg».proof.Proof.Gen.Kernel.Skeleton
import proofs.«176777_j66563403153867_2_alg».proof.Proof.Gen.Kernel.Launch
import proofs.«176777_j66563403153867_2_alg».proof.Proof.Gen.Kernel.Points
import proofs.«176777_j66563403153867_2_alg».proof.Proof.Gen.Kernel.Frame
import proofs.«176777_j66563403153867_2_alg».proof.Proof.Gen.KernelIdeal
import proofs.«176777_j66563403153867_2_alg».proof.Proof.Gen.KernelIdeal.Skeleton
import proofs.«176777_j66563403153867_2_alg».proof.Proof.Gen.KernelIdeal.Launch
import proofs.«176777_j66563403153867_2_alg».proof.Proof.Gen.KernelIdeal.Points
import proofs.«176777_j66563403153867_2_alg».proof.Proof.Gen.KernelIdeal.Frame
import proofs.«176777_j66563403153867_2_alg».proof.Proof.Gen.ReferenceIdeal
import proofs.«176777_j66563403153867_2_alg».proof.Proof.Gen.ReferenceIdeal.Run
import proofs.«176777_j66563403153867_2_alg».proof.Proof.Gen.ReferenceIdeal.Read
import proofs.«176777_j66563403153867_2_alg».proof.Proof.Gen.Pre_finite_inputs
import proofs.«176777_j66563403153867_2_alg».proof.Proof.RefValue
import proofs.«176777_j66563403153867_2_alg».proof.Proof.KernelRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `ref`, both idealized programs end with their result buffers at `Cosine.cos` of the
    kernel side's arguments: the kernel program by its run read back, the reference by its run, its last stage read index by
    index, and the agreement of the arguments. -/
theorem algebraic : Cert.algebraic_KernelIdeal_ReferenceIdeal := by
  intro m ρ m' ρ' _ hagree
  refine ⟨fun c => Cert.Cosine.cos (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
